-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 39
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeHead.lean ====
/-
  The dense head of one graph node, as a function on the extended reals.

  A node carries a feature row `xr` (128 numbers) and the mean `hr` of its in-neighbours' rows. The head is
    h   = max ((xr · Ws + bs) + hr · Wn) 0        (self and neighbour projections, one bias, a ramp)
    h'  = max (h · W1 + b1) 0                      (first layer of the head)
    out = h' · W2 + b2                             (second layer),
  every product `v · W` the row-by-matrix product `∑ k, v k * W k j` over the 128 features, with exact sums
  and products. The grouping `(xr · Ws + bs) + hr · Wn` is kept as written: on the extended reals a sum may
  not be regrouped across an infinity for free, and nothing below needs to.

  `result` applies the head to every row of a 100000 × 128 feature array `x` beside an array `hn` of
  neighbour means of the same shape: entry (r, j) depends on row r of `x`, row r of `hn`, and the weights.
  How `hn` is obtained from `x` and the edge lists does not matter here; it is a parameter.
-/
import Idealize.ShloMosaic.PureOps.Ideal
import Idealize.ShloMosaic.Lib.ValueIdx

noncomputable section

namespace Cert.NodeHead

open Idealize.ShloMosaic Idealize.ShloMosaic.ValueIdx

/-- The zero both programs write: the word `0x00000000` read as an extended real. It is the same word on
    both sides, so it is never evaluated. -/
abbrev zeroWord : EReal := Ideal.ofBits .f32 0x00000000#32

/-- A feature row times a 128 × 128 matrix, at column `j`. -/
def dense (v : Fin 128 → EReal) (W : Fin 128 → Fin 128 → EReal) (j : Fin 128) : EReal :=
  ∑ k : Fin 128, v k * W k j

/-- Equal rows and equal matrices, entry by entry, give equal products. -/
theorem dense_congr {v v' : Fin 128 → EReal} {W W' : Fin 128 → Fin 128 → EReal} (hv : ∀ k, v k = v' k)
    (hW : ∀ a b, W a b = W' a b) (j : Fin 128) : dense v W j = dense v' W' j :=
  Finset.sum_congr rfl fun k _ => by rw [hv k, hW k j]

/-- The combined self / neighbour projection after the ramp at `z` (the programs' zero). -/
def hidden (z : EReal) (xr hr : Fin 128 → EReal) (Ws Wn : Fin 128 → Fin 128 → EReal) (bs : Fin 128 → EReal)
    (k : Fin 128) : EReal :=
  max ((dense xr Ws k + bs k) + dense hr Wn k) z

/-- The first layer of the head after its ramp. -/
def hidden' (z : EReal) (xr hr : Fin 128 → EReal) (Ws Wn W1 : Fin 128 → Fin 128 → EReal)
    (bs b1 : Fin 128 → EReal) (k : Fin 128) : EReal :=
  max (dense (hidden z xr hr Ws Wn bs) W1 k + b1 k) z

/-- The head's output for one node, at output feature `j`. -/
def out (z : EReal) (xr hr : Fin 128 → EReal) (Ws Wn W1 W2 : Fin 128 → Fin 128 → EReal)
    (bs b1 b2 : Fin 128 → EReal) (j : Fin 128) : EReal :=
  dense (hidden' z xr hr Ws Wn W1 bs b1) W2 j + b2 j

/-- The head depends on its row, its weights and its biases only through their entries. -/
theorem out_congr {z : EReal} {xr xr' hr hr' : Fin 128 → EReal} {Ws Ws' Wn Wn' W1 W1' W2 W2' : Fin 128 → Fin 128 → EReal}
    {bs bs' b1 b1' b2 b2' : Fin 128 → EReal} {j j' : Fin 128}
    (hx : ∀ a, xr a = xr' a) (hh : ∀ a, hr a = hr' a)
    (hWs : ∀ a b, Ws a b = Ws' a b) (hWn : ∀ a b, Wn a b = Wn' a b) (hW1 : ∀ a b, W1 a b = W1' a b) (hW2 : ∀ a b, W2 a b = W2' a b)
    (hbs : ∀ a, bs a = bs' a) (hb1 : ∀ a, b1 a = b1' a) (hb2 : ∀ a, b2 a = b2' a) (hj : j = j') :
    out z xr hr Ws Wn W1 W2 bs b1 b2 j = out z xr' hr' Ws' Wn' W1' W2' bs' b1' b2' j' := by
  obtain rfl : xr = xr' := funext hx
  obtain rfl : hr = hr' := funext hh
  obtain rfl : Ws = Ws' := funext fun a => funext (hWs a)
  obtain rfl : Wn = Wn' := funext fun a => funext (hWn a)
  obtain rfl : W1 = W1' := funext fun a => funext (hW1 a)
  obtain rfl : W2 = W2' := funext fun a => funext (hW2 a)
  obtain rfl : bs = bs' := funext hbs
  obtain rfl : b1 = b1' := funext hb1
  obtain rfl : b2 = b2' := funext hb2
  subst hj
  rfl

/-- The head of node `r` read off whole arrays: row `r` of the features and of the neighbour means, the
    weight matrices entry by entry, the biases as vectors of 128. -/
def outAt (z : EReal) (x hn : (⟨2, ![100000, 128]⟩ : Shape).Idx → EReal)
    (Ws Wn W1 W2 : (⟨2, ![128, 128]⟩ : Shape).Idx → EReal) (bs b1 b2 : (⟨1, ![128]⟩ : Shape).Idx → EReal)
    (r : Fin 100000) (j : Fin 128) : EReal :=
  out z (fun k => x (ix2 r k)) (fun k => hn (ix2 r k))
    (fun a b => Ws (ix2 a b)) (fun a b => Wn (ix2 a b)) (fun a b => W1 (ix2 a b)) (fun a b => W2 (ix2 a b))
    (fun k => bs (ix1 k)) (fun k => b1 (ix1 k)) (fun k => b2 (ix1 k)) j

/-- The whole result array: the head of every node. -/
def result (z : EReal) (x hn : (⟨2, ![100000, 128]⟩ : Shape).Idx → EReal)
    (Ws Wn W1 W2 : (⟨2, ![128, 128]⟩ : Shape).Idx → EReal) (bs b1 b2 : (⟨1, ![128]⟩ : Shape).Idx → EReal) :
    (⟨2, ![100000, 128]⟩ : Shape).Idx → EReal :=
  fun i => outAt z x hn Ws Wn W1 W2 bs b1 b2 (i 0) (i 1)

theorem result_ix2 (z : EReal) (x hn : (⟨2, ![100000, 128]⟩ : Shape).Idx → EReal)
    (Ws Wn W1 W2 : (⟨2, ![128, 128]⟩ : Shape).Idx → EReal) (bs b1 b2 : (⟨1, ![128]⟩ : Shape).Idx → EReal)
    (r : Fin 100000) (j : Fin 128) :
    result z x hn Ws Wn W1 W2 bs b1 b2 (ix2 r j) = outAt z x hn Ws Wn W1 W2 bs b1 b2 r j := rfl

end Cert.NodeHead

end
-- ==== Proof.RefHead.lean ====
/-
  The reference's last stage is the node head of every row.

  The reference program computes the neighbour means (a gather along the edges, two segment sums, a quotient)
  and then, on whole 100000 × 128 arrays, three matrix products with biases and two ramps. Read at an entry
  (r, j), each product is a sum over the 128 features of row r, each bias is broadcast along the rows, each
  ramp is a maximum with zero: together the head `NodeHead.out` of row r. The neighbour means enter as one
  array, whatever produced it; that stage is never opened.
-/
import proofs.«136332_j28398323761563_1_alg».proof.Proof.Gen.ReferenceIdeal.Read
import proofs.«136332_j28398323761563_1_alg».proof.Proof.NodeHead

noncomputable section

namespace Cert.ReferenceIdeal.RefHead

open Cert.ReferenceIdeal Cert.ReferenceIdeal.Gen Cert.ReferenceIdeal.Read Idealize.ShloMosaic Idealize.ShloMosaic.ValueIdx
open Cert.NodeHead

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## Where each product reads its operands: row r of the left one, column j of the right one -/

theorem lrow19 (r : Fin 100000) (j k : Fin 128) : lidx_main_v19 (ix2 r j) k = ix2 r k :=
  funext fun a => Fin.ext (by match a with | ⟨0, _⟩ => rfl | ⟨1, _⟩ => rfl)
theorem rcol19 (r : Fin 100000) (j k : Fin 128) : ridx_main_v19 (ix2 r j) k = ix2 k j :=
  funext fun a => Fin.ext (by match a with | ⟨0, _⟩ => rfl | ⟨1, _⟩ => rfl)
theorem lrow23 (r : Fin 100000) (j k : Fin 128) : lidx_main_v23 (ix2 r j) k = ix2 r k :=
  funext fun a => Fin.ext (by match a with | ⟨0, _⟩ => rfl | ⟨1, _⟩ => rfl)
theorem rcol23 (r : Fin 100000) (j k : Fin 128) : ridx_main_v23 (ix2 r j) k = ix2 k j :=
  funext fun a => Fin.ext (by match a with | ⟨0, _⟩ => rfl | ⟨1, _⟩ => rfl)
theorem lrow26 (r : Fin 100000) (j k : Fin 128) : lidx_main_v26 (ix2 r j) k = ix2 r k :=
  funext fun a => Fin.ext (by match a with | ⟨0, _⟩ => rfl | ⟨1, _⟩ => rfl)
theorem rcol26 (r : Fin 100000) (j k : Fin 128) : ridx_main_v26 (ix2 r j) k = ix2 k j :=
  funext fun a => Fin.ext (by match a with | ⟨0, _⟩ => rfl | ⟨1, _⟩ => rfl)
theorem lrow31 (r : Fin 100000) (j k : Fin 128) : lidx_main_v31 (ix2 r j) k = ix2 r k :=
  funext fun a => Fin.ext (by match a with | ⟨0, _⟩ => rfl | ⟨1, _⟩ => rfl)
theorem rcol31 (r : Fin 100000) (j k : Fin 128) : ridx_main_v31 (ix2 r j) k = ix2 k j :=
  funext fun a => Fin.ext (by match a with | ⟨0, _⟩ => rfl | ⟨1, _⟩ => rfl)

/-! ## A bias broadcast along the rows reads its entry j -/

theorem bias21 (r : Fin 100000) (j : Fin 128) : val_main_v21 (F := Ideal) x5 (ix2 r j) = x5 (ix1 j) := by
  rw [val_main_v21_apply, val_main_v20_apply]
  exact congrArg x5 (funext fun a => Fin.ext (by match a with | ⟨0, _⟩ => rfl))
theorem bias28 (r : Fin 100000) (j : Fin 128) : val_main_v28 (F := Ideal) x7 (ix2 r j) = x7 (ix1 j) := by
  rw [val_main_v28_apply, val_main_v27_apply]
  exact congrArg x7 (funext fun a => Fin.ext (by match a with | ⟨0, _⟩ => rfl))
theorem bias33 (r : Fin 100000) (j : Fin 128) : val_main_v33 (F := Ideal) x9 (ix2 r j) = x9 (ix1 j) := by
  rw [val_main_v33_apply, val_main_v32_apply]
  exact congrArg x9 (funext fun a => Fin.ext (by match a with | ⟨0, _⟩ => rfl))

/-! ## The three layers at an entry -/

/-- After the first ramp, entry (r, k) is the combined projection of row r: the features times the self
    weights plus the self bias, plus the neighbour means times the neighbour weights, ramped. -/
theorem hidden_at (r : Fin 100000) (k : Fin 128) :
    val_main_v25 (F := Ideal) x0 x1 x2 x3 x4 x5 (ix2 r k)
      = hidden zeroWord (fun a => x0 (ix2 r a)) (fun a => val_main_v18 (F := Ideal) x0 x1 x2 (ix2 r a))
          (fun a b => x4 (ix2 a b)) (fun a b => x3 (ix2 a b)) (fun a => x5 (ix1 a)) k := by
  rw [val_main_v25_apply, val_main_v24_apply, val_main_v22_apply, val_main_v19_apply, val_main_v23_apply, bias21,
    val_main_call0_v0_apply, val_main_call0_cst_apply]
  have e1 : (∑ a : Fin 128, x0 (lidx_main_v19 (ix2 r k) a) * x4 (ridx_main_v19 (ix2 r k) a))
      = dense (fun a => x0 (ix2 r a)) (fun a b => x4 (ix2 a b)) k :=
    Finset.sum_congr rfl fun a _ => by rw [lrow19, rcol19]
  have e2 : (∑ a : Fin 128, val_main_v18 (F := Ideal) x0 x1 x2 (lidx_main_v23 (ix2 r k) a) * x3 (ridx_main_v23 (ix2 r k) a))
      = dense (fun a => val_main_v18 (F := Ideal) x0 x1 x2 (ix2 r a)) (fun a b => x3 (ix2 a b)) k :=
    Finset.sum_congr rfl fun a _ => by rw [lrow23, rcol23]
  rw [e1, e2]
  rfl

/-- After the second ramp, entry (r, k) is the first layer of the head of row r. -/
theorem hidden'_at (r : Fin 100000) (k : Fin 128) :
    val_main_v30 (F := Ideal) x0 x1 x2 x3 x4 x5 x6 x7 (ix2 r k)
      = hidden' zeroWord (fun a => x0 (ix2 r a)) (fun a => val_main_v18 (F := Ideal) x0 x1 x2 (ix2 r a))
          (fun a b => x4 (ix2 a b)) (fun a b => x3 (ix2 a b)) (fun a b => x6 (ix2 a b))
          (fun a => x5 (ix1 a)) (fun a => x7 (ix1 a)) k := by
  rw [val_main_v30_apply, val_main_v29_apply, val_main_v26_apply, bias28, val_main_call1_v0_apply, val_main_call1_cst_apply]
  have e1 : (∑ a : Fin 128, val_main_v25 (F := Ideal) x0 x1 x2 x3 x4 x5 (lidx_main_v26 (ix2 r k) a) * x6 (ridx_main_v26 (ix2 r k) a))
      = dense (hidden zeroWord (fun a => x0 (ix2 r a)) (fun a => val_main_v18 (F := Ideal) x0 x1 x2 (ix2 r a))
          (fun a b => x4 (ix2 a b)) (fun a b => x3 (ix2 a b)) (fun a => x5 (ix1 a))) (fun a b => x6 (ix2 a b)) k :=
    Finset.sum_congr rfl fun a _ => by rw [lrow26, rcol26, hidden_at]
  rw [e1]
  rfl

/-- The result's entry (r, j) is the head of row r at feature j. -/
theorem out_at (r : Fin 100000) (j : Fin 128) :
    val_main_v34 (F := Ideal) x0 x1 x2 x3 x4 x5 x6 x7 x8 x9 (ix2 r j)
      = outAt zeroWord x0 (val_main_v18 (F := Ideal) x0 x1 x2) x4 x3 x6 x8 x5 x7 x9 r j := by
  rw [val_main_v34_apply, val_main_v31_apply, bias33]
  have e1 : (∑ a : Fin 128, val_main_v30 (F := Ideal) x0 x1 x2 x3 x4 x5 x6 x7 (lidx_main_v31 (ix2 r j) a) * x8 (ridx_main_v31 (ix2 r j) a))
      = dense (hidden' zeroWord (fun a => x0 (ix2 r a)) (fun a => val_main_v18 (F := Ideal) x0 x1 x2 (ix2 r a))
          (fun a b => x4 (ix2 a b)) (fun a b => x3 (ix2 a b)) (fun a b => x6 (ix2 a b))
          (fun a => x5 (ix1 a)) (fun a => x7 (ix1 a))) (fun a b => x8 (ix2 a b)) j :=
    Finset.sum_congr rfl fun a _ => by rw [lrow31, rcol31, hidden'_at]
  rw [e1]
  rfl

/-- The reference's result array is `NodeHead.result` of the arguments and of its own neighbour means. -/
theorem result_eq :
    val_main_v34 (F := Ideal) x0 x1 x2 x3 x4 x5 x6 x7 x8 x9
      = result zeroWord x0 (val_main_v18 (F := Ideal) x0 x1 x2) x4 x3 x6 x8 x5 x7 x9 := by
  funext i
  obtain ⟨r, j, rfl⟩ : ∃ (r : Fin 100000) (j : Fin 128), i = ix2 r j := ⟨i 0, i 1, eq_ix2 i⟩
  exact out_at x0 x1 x2 x3 x4 x5 x6 x7 x8 x9 r j

end Cert.ReferenceIdeal.RefHead

end
-- ==== Proof.KernelHead.lean ====
/-
  What the kernel leaves in an output block is the node head of each of the block's rows.

  At a grid point the body loads a block of 5000 feature rows, the block of their neighbour means, the four
  weight matrices and the three biases (each a 1 × 128 row), and stores
      max (max ((x · Ws + bs) + hn · Wn) 0 · W1 + b1) 0 · W2 + b2.
  On the extended reals the roundings to sixteen bits on the way into each product are the identity, a product
  accumulated into zero is the plain sum over the 128 features, a bias row broadcast down the block reads its
  entry of the column, and the ramp is a maximum with the zero word. So entry (p, q) of the stored block is
  `NodeHead.out` of row p of the two loaded blocks — the same function of one row that the reference applies.
  Everything here is stated over arbitrary blocks of the literal shapes; the grid point enters later.
-/
import proofs.«136332_j28398323761563_1_alg».proof.Proof.Gen.KernelIdeal.Value
import proofs.«136332_j28398323761563_1_alg».proof.Proof.NodeHead
import Idealize.ShloMosaic.PureOps.Ideal.Laws
import Idealize.ShloMosaic.Lib.ValueIdx
import Idealize.ShloMosaic.Lib.Pipeline.Value

noncomputable section

namespace Cert.KernelIdeal.BlockHead

open Cert.KernelIdeal Cert.KernelIdeal.Gen Cert.KernelIdeal.Value Idealize.ShloMosaic Idealize.ShloMosaic.ValueIdx
open Cert.NodeHead

/-! ## A product of a 5000 × 128 block with a 128 × 128 matrix, accumulated into zero, at an entry -/

theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feat (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
theorem rhs_feat (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product is row p of the block times column q of the matrix. -/
theorem matmul_at {φ₁ φ₂ : FTy} (l : FVec Ideal S5000x128 φ₁) (w : FVec Ideal S128x128 φ₂) (p : Fin 5000) (q : Fin 128) :
    matmul dot_S5000x128_S128x128_S5000x128_1_0_0_1_n_n none l w (constant S5000x128 .f32 0x00000000#32) (ix2 p q)
      = dense (fun k => l (ix2 p k)) (fun a b => w (ix2 a b)) q := by
  show FloatOps.matmul dot_S5000x128_S128x128_S5000x128_1_0_0_1_n_n none l w (constant S5000x128 .f32 0x00000000#32) (ix2 p q)
    = ∑ k : Fin 128, l (ix2 p k) * w (ix2 k q)
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_feat _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_feat _ _).trans hk
    | ⟨1, _⟩ => exact rhs_col _ _)
  rw [el, er]

/-! ## A bias row broadcast down the block -/

/-- Entry (p, q) of a 1 × 128 row broadcast to 5000 × 128 is the row's entry q. -/
theorem bias_at (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = (if (1 : Nat) = 1 then 0 else p.val); rw [if_pos rfl]
    | ⟨1, _⟩ => by show q.val = (if (128 : Nat) = 1 then 0 else q.val); rw [if_neg (by decide)])

/-! ## The body's arithmetic at an entry -/

variable (P0 P1 : Vec Ideal S5000x128 .f32) (P2 P3 : Vec Ideal S128x128 .f32) (P4 : Vec Ideal S1x128 .f32)
  (P5 : Vec Ideal S128x128 .f32) (P6 : Vec Ideal S1x128 .f32) (P7 : Vec Ideal S128x128 .f32) (P8 : Vec Ideal S1x128 .f32)

/-- The last product's entry (p, q): the first layer of the head of row p, times column q of the last weights. -/
theorem pay_at (p : Fin 5000) (q : Fin 128) :
    k0_pay2 (F := Ideal) P0 P1 P2 P3 P4 P5 P6 P7 (ix2 p q)
      = dense (hidden' zeroWord (fun a => P0 (ix2 p a)) (fun a => P1 (ix2 p a)) (fun a b => P2 (ix2 a b))
          (fun a b => P3 (ix2 a b)) (fun a b => P5 (ix2 a b)) (fun a => P4 (ix2 0 a)) (fun a => P6 (ix2 0 a)))
          (fun a b => P7 (ix2 a b)) q := by
  unfold k0_pay2
  simp only [shapeCast_self]
  refine (matmul_at _ _ p q).trans ?_
  refine dense_congr (fun k => ?_) (fun a b => rfl) q
  show max (matmul (F := Ideal) _ none _ _ _ (ix2 p k) + broadcastTo _ P6 _ (ix2 p k)) zeroWord = _
  rw [matmul_at, bias_at]
  refine congrArg (fun s => max (s + P6 (ix2 0 k)) zeroWord) (dense_congr (fun k' => ?_) (fun a b => rfl) k)
  show max ((matmul (F := Ideal) _ none _ _ _ (ix2 p k') + broadcastTo _ P4 _ (ix2 p k')) + matmul (F := Ideal) _ none _ _ _ (ix2 p k')) zeroWord = _
  rw [matmul_at, matmul_at, bias_at]
  rfl

/-- Entry (p, q) of what the stores leave in the output block: the head of row p at feature q. -/
theorem E9_at (p : Fin 5000) (q : Fin 128) :
    E9 (F := Ideal) P0 P1 P2 P3 P4 P5 P6 P7 P8 (ix2 p q)
      = out zeroWord (fun a => P0 (ix2 p a)) (fun a => P1 (ix2 p a)) (fun a b => P2 (ix2 a b)) (fun a b => P3 (ix2 a b))
          (fun a b => P5 (ix2 a b)) (fun a b => P7 (ix2 a b)) (fun a => P4 (ix2 0 a)) (fun a => P6 (ix2 0 a))
          (fun a => P8 (ix2 0 a)) q := by
  have i0 : ix9_0 (ix2 p q : S5000x128.Idx) = ix2 p q := funext fun a => Fin.ext (by match a with | ⟨0, _⟩ => rfl | ⟨1, _⟩ => rfl)
  have i1 : ix9_1 (ix2 p q : S5000x128.Idx) = ix2 0 q := funext fun a => Fin.ext (by match a with | ⟨0, _⟩ => rfl | ⟨1, _⟩ => rfl)
  show k0_pay2 (F := Ideal) P0 P1 P2 P3 P4 P5 P6 P7 (ix9_0 (ix2 p q)) + P8 (ix9_1 (ix2 p q)) = _
  rw [i0, i1, pay_at]
  rfl

theorem zero_off : (![0, 0] : Fin 2 → Nat) = fun _ => 0 := funext fun a => by fin_cases a <;> rfl

/-- The output block after the body, from the nine input blocks as the body finds them (in the order of the
    call's operands: features, neighbour means, self weights, self bias, neighbour weights, first weights, first
    bias, second weights, second bias), at entry (p, q). -/
theorem block_at (x0 x1 : Vec Ideal S5000x128 .f32) (x2 : Vec Ideal S128x128 .f32) (x3 : Vec Ideal S1x128 .f32)
    (x4 x5 : Vec Ideal S128x128 .f32) (x6 : Vec Ideal S1x128 .f32) (x7 : Vec Ideal S128x128 .f32) (x8 : Vec Ideal S1x128 .f32)
    (p : Fin 5000) (q : Fin 128) :
    out0_9 (F := Ideal) x0 x1 x2 x3 x4 x5 x6 x7 x8 (ix2 p q)
      = out zeroWord (fun a => x0 (ix2 p a)) (fun a => x1 (ix2 p a)) (fun a b => x2 (ix2 a b)) (fun a b => x4 (ix2 a b))
          (fun a b => x5 (ix2 a b)) (fun a b => x7 (ix2 a b)) (fun a => x3 (ix2 0 a)) (fun a => x6 (ix2 0 a))
          (fun a => x8 (ix2 0 a)) q := by
  unfold out0_9
  rw [canon9_eq]
  simp only [View.ld_unit_zero (S := S5000x128) zero_off, View.ld_unit_zero (S := S128x128) zero_off,
    View.ld_unit_zero (S := S1x128) zero_off]
  exact E9_at x0 x1 x2 x4 x3 x5 x6 x7 x8 p q

end Cert.KernelIdeal.BlockHead

end
-- ==== Proof.HostSide.lean ====
/-
  What the region finds in the arrays the host wrote before it.

  Four of the call's operands are not arguments but results of host operations that run first: the neighbour
  means (a gather of the feature rows along the edges, a segment sum of them and of ones by destination, the
  count clamped below by one, a quotient), and the three biases reshaped from 128 to 1 × 128.

  The neighbour means are computed by the very operations, in the very order, that the reference program uses
  for its own neighbour means: the two terms are the same composition of the same operations on the same
  arguments, so they are identified as wholes and the gather and the segment sums are never opened.
  A reshaped bias keeps its entries in order: entry (0, k) of the row is entry k of the vector.
-/
import proofs.«136332_j28398323761563_1_alg».proof.Proof.Gen.KernelIdeal.Frame
import proofs.«136332_j28398323761563_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
set_option maxRecDepth 8192 in
/-- The neighbour means as the region finds them are the reference's neighbour-mean stage of the same three
    arguments (features, edge sources, edge destinations). -/
theorem means_eq (c : Dev nD) :
    (V m c main_v18 : S100000x128.Idx → EReal)
      = Cert.ReferenceIdeal.Read.val_main_v18 (F := Ideal) (m ((c : Thread nD τ).loc main_arg0))
          (m ((c : Thread nD τ).loc main_arg1)) (m ((c : Thread nD τ).loc main_arg2)) := by
  dsimp only [Gen.V, Gen.hostOps0]
  after_results_simp <;> rfl

/-- The self bias as the region finds it: the argument vector reshaped to one row. -/
theorem self_bias_eq (c : Dev nD) :
    (V m c main_v19 : S1x128.Idx → EReal) = shapeCast S1x128 (m ((c : Thread nD τ).loc main_arg5)) shapeCasts_S128_S1x128 := by
  dsimp only [Gen.V, Gen.hostOps0]
  after_results
  rfl

/-- The first layer's bias likewise. -/
theorem bias1_eq (c : Dev nD) :
    (V m c main_v20 : S1x128.Idx → EReal) = shapeCast S1x128 (m ((c : Thread nD τ).loc main_arg7)) shapeCasts_S128_S1x128 := by
  dsimp only [Gen.V, Gen.hostOps0]
  after_results
  rfl

/-- The second layer's bias likewise. -/
theorem bias2_eq (c : Dev nD) :
    (V m c main_v21 : S1x128.Idx → EReal) = shapeCast S1x128 (m ((c : Thread nD τ).loc main_arg9)) shapeCasts_S128_S1x128 := by
  dsimp only [Gen.V, Gen.hostOps0]
  after_results
  rfl

/-- A vector of 128 reshaped to 1 × 128, at (0, k), is the vector at k: both sit at position k in row-major order. -/
theorem row_at (b : S128.Idx → EReal) (k : Fin 128) :
    shapeCast S1x128 b shapeCasts_S128_S1x128 (ix2 0 k) = b (ix1 k) :=
  shapeCast_apply b shapeCasts_S128_S1x128 (ix2 0 k) (ix1 k) (by
    rw [Shape.rowMajor_val_one, Shape.rowMajor_val_two]
    show k.val = 0 * 128 + k.val
    omega)

end Cert.KernelIdeal.HostSide

end
-- ==== Proof.Blocks.lean ====
/-
  From the blocks to the whole result array.

  The grid has 20 points. At point t the call fetches rows 5000·t … 5000·t + 4999 of the features and of the
  neighbour means, the whole of each weight matrix and of each bias row, and writes back rows
  5000·t … 5000·t + 4999 of the result. The block written is the node head of its own 5000 rows
  (`BlockHead.block_at`), and row p of block t is row 5000·t + p of the arrays: so what point t writes back is
  block t of ONE function of the whole arrays, `NodeHead.result`. The 20 blocks cover all 100000 rows (row r
  lies in block r / 5000), so after the run the result array IS that function of the arrays the region found —
  the feature and weight arguments as launched, the biases reshaped, and the neighbour means the host computed,
  which are the reference's own neighbour-mean stage (`HostSide.means_eq`).
-/
import proofs.«136332_j28398323761563_1_alg».proof.Proof.Gen.KernelIdeal.Value
import proofs.«136332_j28398323761563_1_alg».proof.Proof.NodeHead
import proofs.«136332_j28398323761563_1_alg».proof.Proof.KernelHead
import proofs.«136332_j28398323761563_1_alg».proof.Proof.HostSide

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.NodeHead

variable (m : (ℓ : Loc nD τ sig) → Buf (Elt Ideal) ℓ) (ρ : Dev nD → PrngReg)

/-! ## The block indices at every grid point, decided over the 20 points -/

/-- The feature blocks move with the output along the rows and never along the features. -/
theorem idx_rows0 : ∀ t : Fin cfg0.N, win0_0.index t (0 : Fin 2) = win0_9.index t (0 : Fin 2) ∧ win0_0.index t (1 : Fin 2) = 0 :=
  (by decide +kernel : ∀ t : Fin grid0.N, _)
/-- So do the blocks of neighbour means. -/
theorem idx_rows1 : ∀ t : Fin cfg0.N, win0_1.index t (0 : Fin 2) = win0_9.index t (0 : Fin 2) ∧ win0_1.index t (1 : Fin 2) = 0 :=
  (by decide +kernel : ∀ t : Fin grid0.N, _)
/-! Every other input stays at its one block. -/
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
/-- The output's block spans all the features. -/
theorem idx_out : ∀ t : Fin cfg0.N, win0_9.index t (1 : Fin 2) = 0 :=
  (by decide +kernel : ∀ t : Fin grid0.N, _)

/-- Every one of the 20 row blocks is some point's. -/
theorem idx_onto : ∀ b : Fin 20, ∃ t : Fin cfg0.N, win0_9.index t = ![b.val, 0] :=
  (by decide +kernel : ∀ b : Fin 20, ∃ t : Fin grid0.N, win0_9.index t = ![b.val, 0])

/-! ## Each fetched block read where the output's entry (p, q) needs it -/

/-- Row p of the feature block at point t is the array's row under the output's entry (p, q): row 5000·t + p. -/
theorem read_feat (c : Dev nD) (t : Fin cfg0.N) (p : Fin 5000) (q a : Fin 128) :
    iblk m c 0 t (ix2 p a) = V m c main_arg0 (ix2 ((((cfg0.win 9).blk t).view.emb (ix2 p q)) 0) a) := by
  obtain ⟨e0, e1⟩ := idx_rows0 t
  show V m c main_arg0 (((cfg0.win 0).blk t).view.emb (ix2 p a)) = V m c main_arg0 (ix2 ((((cfg0.win 9).blk t).view.emb (ix2 p q)) 0) a)
  refine congrArg (V m c main_arg0) (funext fun d => Fin.ext ?_)
  match d with
  | ⟨0, _⟩ => show win0_0.index t (0 : Fin 2) * 5000 + 1 * p.val = win0_9.index t (0 : Fin 2) * 5000 + 1 * p.val; omega
  | ⟨1, _⟩ => show win0_0.index t (1 : Fin 2) * 128 + 1 * a.val = a.val; omega

/-- Reading ANY contents of the call's operand 1 through block t at (p, a): the contents at the output's own
    row under (p, q), column a. The contents are a variable: only the block's index arithmetic is used. -/
theorem read_rows1 (c : Dev nD) (t : Fin cfg0.N) (p : Fin 5000) (q a : Fin 128)
    (f : Buf (Elt Ideal) ((c : Thread nD τ).loc (Pipeline.arrRef spec0 1))) :
    ((cfg0.win 1).blk t).view.read (Elt Ideal) f (ix2 p a) = f (ix2 ((((cfg0.win 9).blk t).view.emb (ix2 p q)) 0) a) := by
  obtain ⟨e0, e1⟩ := idx_rows1 t
  show f (((cfg0.win 1).blk t).view.emb (ix2 p a)) = f (ix2 ((((cfg0.win 9).blk t).view.emb (ix2 p q)) 0) a)
  refine congrArg f (funext fun d => Fin.ext ?_)
  match d with
  | ⟨0, _⟩ => show win0_1.index t (0 : Fin 2) * 5000 + 1 * p.val = win0_9.index t (0 : Fin 2) * 5000 + 1 * p.val; omega
  | ⟨1, _⟩ => show win0_1.index t (1 : Fin 2) * 128 + 1 * a.val = a.val; omega

/-- So the block of neighbour means at point t, row p, is the array of neighbour means at the output's row. -/
theorem read_means (c : Dev nD) (t : Fin cfg0.N) (p : Fin 5000) (q a : Fin 128) :
    iblk m c 1 t (ix2 p a) = V m c (Pipeline.arrRef spec0 1) (ix2 ((((cfg0.win 9).blk t).view.emb (ix2 p q)) 0) a) := by
  unfold iblk
  exact read_rows1 c t p q a (V m c (Pipeline.arrRef spec0 1))

/-- The self weights: the whole matrix at every point. -/
theorem read_wself (c : Dev nD) (t : Fin cfg0.N) (a b : Fin 128) :
    iblk m c 2 t (ix2 a b) = V m c main_arg4 (ix2 a b) := by
  obtain ⟨e0, e1⟩ := idx_whole2 t
  show V m c main_arg4 (((cfg0.win 2).blk t).view.emb (ix2 a b)) = V m c main_arg4 (ix2 a b)
  refine congrArg (V m c main_arg4) (funext fun d => Fin.ext ?_)
  match d with
  | ⟨0, _⟩ => show win0_2.index t (0 : Fin 2) * 128 + 1 * a.val = a.val; omega
  | ⟨1, _⟩ => show win0_2.index t (1 : Fin 2) * 128 + 1 * b.val = b.val; omega

/-- The neighbour weights likewise. -/
theorem read_wneigh (c : Dev nD) (t : Fin cfg0.N) (a b : Fin 128) :
    iblk m c 4 t (ix2 a b) = V m c main_arg3 (ix2 a b) := by
  obtain ⟨e0, e1⟩ := idx_whole4 t
  show V m c main_arg3 (((cfg0.win 4).blk t).view.emb (ix2 a b)) = V m c main_arg3 (ix2 a b)
  refine congrArg (V m c main_arg3) (funext fun d => Fin.ext ?_)
  match d with
  | ⟨0, _⟩ => show win0_4.index t (0 : Fin 2) * 128 + 1 * a.val = a.val; omega
  | ⟨1, _⟩ => show win0_4.index t (1 : Fin 2) * 128 + 1 * b.val = b.val; omega

/-- The first layer's weights likewise. -/
theorem read_w1 (c : Dev nD) (t : Fin cfg0.N) (a b : Fin 128) :
    iblk m c 5 t (ix2 a b) = V m c main_arg6 (ix2 a b) := by
  obtain ⟨e0, e1⟩ := idx_whole5 t
  show V m c main_arg6 (((cfg0.win 5).blk t).view.emb (ix2 a b)) = V m c main_arg6 (ix2 a b)
  refine congrArg (V m c main_arg6) (funext fun d => Fin.ext ?_)
  match d with
  | ⟨0, _⟩ => show win0_5.index t (0 : Fin 2) * 128 + 1 * a.val = a.val; omega
  | ⟨1, _⟩ => show win0_5.index t (1 : Fin 2) * 128 + 1 * b.val = b.val; omega

/-- The second layer's weights likewise. -/
theorem read_w2 (c : Dev nD) (t : Fin cfg0.N) (a b : Fin 128) :
    iblk m c 7 t (ix2 a b) = V m c main_arg8 (ix2 a b) := by
  obtain ⟨e0, e1⟩ := idx_whole7 t
  show V m c main_arg8 (((cfg0.win 7).blk t).view.emb (ix2 a b)) = V m c main_arg8 (ix2 a b)
  refine congrArg (V m c main_arg8) (funext fun d => Fin.ext ?_)
  match d with
  | ⟨0, _⟩ => show win0_7.index t (0 : Fin 2) * 128 + 1 * a.val = a.val; omega
  | ⟨1, _⟩ => show win0_7.index t (1 : Fin 2) * 128 + 1 * b.val = b.val; omega

/-- The self bias: the one row, which is the argument vector reshaped. -/
theorem read_bself (c : Dev nD) (t : Fin cfg0.N) (a : Fin 128) :
    iblk m c 3 t (ix2 0 a) = (m ((c : Thread nD τ).loc main_arg5)) (ix1 a) := by
  obtain ⟨e0, e1⟩ := idx_whole3 t
  show V m c main_v19 (((cfg0.win 3).blk t).view.emb (ix2 0 a)) = (m ((c : Thread nD τ).loc main_arg5)) (ix1 a)
  have e : ((cfg0.win 3).blk t).view.emb (ix2 (0 : Fin 1) a) = ix2 0 a := funext fun d => Fin.ext (by
    match d with
    | ⟨0, _⟩ => show win0_3.index t (0 : Fin 2) * 1 + 1 * 0 = 0; omega
    | ⟨1, _⟩ => show win0_3.index t (1 : Fin 2) * 128 + 1 * a.val = a.val; omega)
  rw [e]
  exact (congrFun (HostSide.self_bias_eq m c) (ix2 0 a)).trans (HostSide.row_at _ a)

/-- The first layer's bias likewise. -/
theorem read_b1 (c : Dev nD) (t : Fin cfg0.N) (a : Fin 128) :
    iblk m c 6 t (ix2 0 a) = (m ((c : Thread nD τ).loc main_arg7)) (ix1 a) := by
  obtain ⟨e0, e1⟩ := idx_whole6 t
  show V m c main_v20 (((cfg0.win 6).blk t).view.emb (ix2 0 a)) = (m ((c : Thread nD τ).loc main_arg7)) (ix1 a)
  have e : ((cfg0.win 6).blk t).view.emb (ix2 (0 : Fin 1) a) = ix2 0 a := funext fun d => Fin.ext (by
    match d with
    | ⟨0, _⟩ => show win0_6.index t (0 : Fin 2) * 1 + 1 * 0 = 0; omega
    | ⟨1, _⟩ => show win0_6.index t (1 : Fin 2) * 128 + 1 * a.val = a.val; omega)
  rw [e]
  exact (congrFun (HostSide.bias1_eq m c) (ix2 0 a)).trans (HostSide.row_at _ a)

/-- The second layer's bias likewise. -/
theorem read_b2 (c : Dev nD) (t : Fin cfg0.N) (a : Fin 128) :
    iblk m c 8 t (ix2 0 a) = (m ((c : Thread nD τ).loc main_arg9)) (ix1 a) := by
  obtain ⟨e0, e1⟩ := idx_whole8 t
  show V m c main_v21 (((cfg0.win 8).blk t).view.emb (ix2 0 a)) = (m ((c : Thread nD τ).loc main_arg9)) (ix1 a)
  have e : ((cfg0.win 8).blk t).view.emb (ix2 (0 : Fin 1) a) = ix2 0 a := funext fun d => Fin.ext (by
    match d with
    | ⟨0, _⟩ => show win0_8.index t (0 : Fin 2) * 1 + 1 * 0 = 0; omega
    | ⟨1, _⟩ => show win0_8.index t (1 : Fin 2) * 128 + 1 * a.val = a.val; omega)
  rw [e]
  exact (congrFun (HostSide.bias2_eq m c) (ix2 0 a)).trans (HostSide.row_at _ a)

/-- The output's feature coordinate under (p, q) is q. -/
theorem col_eq (t : Fin cfg0.N) (p : Fin 5000) (q : Fin 128) : q = (((cfg0.win 9).blk t).view.emb (ix2 p q)) 1 := by
  have e1 := idx_out t
  refine Fin.ext ?_
  show q.val = win0_9.index t (1 : Fin 2) * 128 + 1 * q.val
  omega

/-- The result array in terms of the arrays as the region finds them (the neighbour means named as the call's
    operand 1, the array the host wrote them to). -/
abbrev found (c : Dev nD) : S100000x128.Idx → EReal :=
  result zeroWord (V m c main_arg0) (V m c (Pipeline.arrRef spec0 1)) (V m c main_arg4) (V m c main_arg3) (V m c main_arg6) (V m c main_arg8)
    (m ((c : Thread nD τ).loc main_arg5)) (m ((c : Thread nD τ).loc main_arg7)) (m ((c : Thread nD τ).loc main_arg9))

/-- WHAT POINT t WRITES BACK is block t of `found`: entry (p, q) of the written block is the head of row p of
    the fetched blocks, and each fetched block read at row p is its array read at the output's own row. -/
theorem flushed_eq (c : Dev nD) (t : Fin cfg0.N) :
    (dats m 0 c).flushed 9 t = ((cfg0.win 9).blk t).view.read (Elt Ideal) (found m c) := by
  rw [Value.flushed9]
  funext y
  obtain ⟨p, q, rfl⟩ : ∃ (p : Fin 5000) (q : Fin 128), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p q)
    = found m c (((cfg0.win 9).blk t).view.emb (ix2 p q))
  refine (BlockHead.block_at (iblk m c 0 t) (iblk m c 1 t) (iblk m c 2 t) (iblk m c 3 t) (iblk m c 4 t) (iblk m c 5 t) (iblk m c 6 t) (iblk m c 7 t) (iblk m c 8 t) p q).trans ?_
  show _ = out zeroWord (fun a => V m c main_arg0 (ix2 ((((cfg0.win 9).blk t).view.emb (ix2 p q)) 0) a)) (fun a => V m c (Pipeline.arrRef spec0 1) (ix2 ((((cfg0.win 9).blk t).view.emb (ix2 p q)) 0) a))
      (fun a b => V m c main_arg4 (ix2 a b)) (fun a b => V m c main_arg3 (ix2 a b)) (fun a b => V m c main_arg6 (ix2 a b))
      (fun a b => V m c main_arg8 (ix2 a b)) (fun a => (m ((c : Thread nD τ).loc main_arg5)) (ix1 a)) (fun a => (m ((c : Thread nD τ).loc main_arg7)) (ix1 a)) (fun a => (m ((c : Thread nD τ).loc main_arg9)) (ix1 a))
      ((((cfg0.win 9).blk t).view.emb (ix2 p q)) 1)
  exact out_congr (fun a => read_feat m c t p q a) (fun a => read_means m c t p q a) (fun a b => read_wself m c t a b)
    (fun a b => read_wneigh m c t a b) (fun a b => read_w1 m c t a b) (fun a b => read_w2 m c t a b)
    (fun a => read_bself m c t a) (fun a => read_b1 m c t a) (fun a => read_b2 m c t a) (col_eq t p q)

/-- An index of the result array is in point t's block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v22).slice (win0_9.rect t)).set ↔ _
  rw [View.set_slice_whole, Rect.mem_set_unit]
  exact Iff.rfl

/-- THE COVER: row r lies in row block r / 5000, and that block is some point's. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE RESULT ARRAY after the run is `found`. -/
theorem final (c : Dev nD) : (dats m 0 c).arrAt 9 cfg0.N = found m c :=
  (dats m 0 c).arrAt_eq_of_cover 9 (found m c) (fun t _ => flushed_eq m c t) (fun i => cover i)

/-- The neighbour means the region finds, named as the call's operand 1, are the reference's neighbour-mean
    stage of the features and the two edge lists. -/
theorem means_arr (c : Dev nD) :
    (V m c (Pipeline.arrRef spec0 1) : S100000x128.Idx → EReal)
      = Cert.ReferenceIdeal.Read.val_main_v18 (F := Ideal) (m ((c : Thread nD τ).loc main_arg0)) (m ((c : Thread nD τ).loc main_arg1)) (m ((c : Thread nD τ).loc main_arg2)) :=
  HostSide.means_eq m c

/-- `found` in terms of the launch memory: the arguments as launched, and for the neighbour means the
    reference's own neighbour-mean stage of the features and the two edge lists. -/
theorem found_eq (c : Dev nD) :
    found m c = result zeroWord (m ((c : Thread nD τ).loc main_arg0))
      (Cert.ReferenceIdeal.Read.val_main_v18 (F := Ideal) (m ((c : Thread nD τ).loc main_arg0)) (m ((c : Thread nD τ).loc main_arg1)) (m ((c : Thread nD τ).loc main_arg2)))
      (m ((c : Thread nD τ).loc main_arg4)) (m ((c : Thread nD τ).loc main_arg3)) (m ((c : Thread nD τ).loc main_arg6)) (m ((c : Thread nD τ).loc main_arg8)) (m ((c : Thread nD τ).loc main_arg5)) (m ((c : Thread nD τ).loc main_arg7)) (m ((c : Thread nD τ).loc main_arg9)) := by
  unfold found
  rw [means_arr m c, V_main_arg0 m c, V_main_arg3 m c, V_main_arg4 m c, V_main_arg6 m c, V_main_arg8 m c]

/-- The kernel's run with the result array named: the node head of every row, the arguments unchanged. -/
theorem run : θ_run defs (onTc (τ := τ) (main (F := Ideal))) ⟨m, fun _ => 0, ρ⟩ fun r => ∀ c : Dev nD,
      r.2.mem ((c : Thread nD τ).loc main_v22) = result zeroWord (m ((c : Thread nD τ).loc main_arg0))
          (Cert.ReferenceIdeal.Read.val_main_v18 (F := Ideal) (m ((c : Thread nD τ).loc main_arg0)) (m ((c : Thread nD τ).loc main_arg1)) (m ((c : Thread nD τ).loc main_arg2)))
          (m ((c : Thread nD τ).loc main_arg4)) (m ((c : Thread nD τ).loc main_arg3)) (m ((c : Thread nD τ).loc main_arg6)) (m ((c : Thread nD τ).loc main_arg8)) (m ((c : Thread nD τ).loc main_arg5)) (m ((c : Thread nD τ).loc main_arg7)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1.trans (final m c)).trans (found_eq m c), (h c).2⟩)
    (Value.run_blocks m ρ)

end Cert.KernelIdeal.Whole

end
-- ==== Proof.lean ====
/-
  The kernel and its reference compute the same array over the extended reals.

  Both programs first form, on the host and by the same operations, the mean of every node's in-neighbours'
  feature rows (a gather along the edges, a segment sum of the gathered rows and of ones by destination, the
  count clamped below by one, a quotient). The reference then applies, to whole 100000 × 128 arrays,
      max (max ((x · Ws + bs) + hn · Wn) 0 · W1 + b1) 0 · W2 + b2;
  the kernel applies the same expression to blocks of 5000 rows at each of 20 grid points, rounding the
  operands of each product to sixteen bits first. On the extended reals the roundings are the identity and every
  product is the exact sum over the 128 features, so each entry of either result is the head `NodeHead.out`
  of its own row: `RefHead.result_eq` for the reference, `Whole.run` for the kernel (the blocks tile the
  rows). The two sides use the same grouping of every sum, so no law of the extended reals beyond the
  definitions is needed and the finiteness of the inputs is never used; the neighbour means enter both sides
  as one and the same term and are never opened.

  The three frames are the generated ones (the reference's is its generated run with the result forgotten);
  the kernel's idealization rewrote nothing, so there is nothing to preserve.
-/
import proofs.«136332_j28398323761563_1_alg».proof.Defs
import proofs.«136332_j28398323761563_1_alg».proof.Proof.Gen.Kernel
import proofs.«136332_j28398323761563_1_alg».proof.Proof.Gen.Kernel.Skeleton
import proofs.«136332_j28398323761563_1_alg».proof.Proof.Gen.Kernel.Launch
import proofs.«136332_j28398323761563_1_alg».proof.Proof.Gen.Kernel.Points
import proofs.«136332_j28398323761563_1_alg».proof.Proof.Gen.Kernel.Frame
import proofs.«136332_j28398323761563_1_alg».proof.Proof.Gen.KernelIdeal
import proofs.«136332_j28398323761563_1_alg».proof.Proof.Gen.KernelIdeal.Skeleton
import proofs.«136332_j28398323761563_1_alg».proof.Proof.Gen.KernelIdeal.Launch
import proofs.«136332_j28398323761563_1_alg».proof.Proof.Gen.KernelIdeal.Points
import proofs.«136332_j28398323761563_1_alg».proof.Proof.Gen.KernelIdeal.Frame
import proofs.«136332_j28398323761563_1_alg».proof.Proof.Gen.ReferenceIdeal
import proofs.«136332_j28398323761563_1_alg».proof.Proof.Gen.Pre_finite_inputs
import proofs.«136332_j28398323761563_1_alg».proof.Proof.Gen.KernelIdeal.Value
import proofs.«136332_j28398323761563_1_alg».proof.Proof.Gen.ReferenceIdeal.Run
import proofs.«136332_j28398323761563_1_alg».proof.Proof.Gen.ReferenceIdeal.Read
import proofs.«136332_j28398323761563_1_alg».proof.Proof.NodeHead
import proofs.«136332_j28398323761563_1_alg».proof.Proof.RefHead
import proofs.«136332_j28398323761563_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the node head of every row, of arguments that agree. -/
theorem algebraic : Cert.algebraic_KernelIdeal_ReferenceIdeal := by
  intro m ρ m' ρ' _ hagree
  refine ⟨fun c => Cert.NodeHead.result Cert.NodeHead.zeroWord (m ((c.tc : Thread Cert.KernelIdeal.nD Cert.KernelIdeal.τ).loc Cert.KernelIdeal.main_arg0))
      (Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9⟩ := hagree c
  rw [(h c).1, Cert.ReferenceIdeal.Read.val_main_v34_eq, Cert.ReferenceIdeal.RefHead.result_eq,
    a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
